-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S8192x4096 .f32) (main_arg1 : IVec S4096x4096 32) (main_arg2 : FVec F S4096x16 .f32) (main_arg3 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x16 .f32 := Host.absf main_arg2
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x16 .f32 := Host.absf main_arg3
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096x16 : Shape := ⟨2, ![4096, 16]⟩
abbrev S512x4096 : Shape := ⟨2, ![512, 4096]⟩
abbrev S512 : Shape := ⟨1, ![512]⟩
abbrev S512x1 : Shape := ⟨2, ![512, 1]⟩
abbrev S512x16 : Shape := ⟨2, ![512, 16]⟩
abbrev S512x16x256 : Shape := ⟨3, ![512, 16, 256]⟩
abbrev S512x16x1 : Shape := ⟨3, ![512, 16, 1]⟩
abbrev S1024x4096 : Shape := ⟨2, ![1024, 4096]⟩
abbrev S1024x512 : Shape := ⟨2, ![1024, 512]⟩

abbrev nBuf : Space → Nat
  | .hbm => 7
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x16, .f32⟩
  | .hbm, ⟨3, _⟩ => ⟨S4096x16, .f32⟩
  | .hbm, ⟨4, _⟩ => ⟨S8192x4096, .bf16⟩
  | .hbm, ⟨5, _⟩ => ⟨S4096x4096, .bf16⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .i32⟩
  | .local _ .vmem, ⟨5, _⟩ => ⟨S512x4096, .i32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x4096, .bf16⟩
  | .local _ .vmem, ⟨11, _⟩ => ⟨S512x4096, .bf16⟩
  | .local _ .vmem, ⟨12, _⟩ => ⟨S1024x4096, .bf16⟩
  | .local _ .vmem, ⟨13, _⟩ => ⟨S1024x4096, .bf16⟩
  | .local _ .vmem, ⟨14, _⟩ => ⟨S512x4096, .bf16⟩
  | .local _ .vmem, ⟨15, _⟩ => ⟨S512x4096, .bf16⟩
  | .local _ .vmem, ⟨16, _⟩ => ⟨S1024x512, .f32⟩
  | .local _ .vmem, ⟨17, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S512x4096_S512x16x256 : S512x4096.ShapeCasts S512x16x256
  inb_S512x16_S512x16_0_0 : ∀ a, (![0, 0] : Fin 2 → Nat) a + S512x16.size a ≤ S512x16.size a
  h_S512x16 : 0 < S512x16.numel
  shapeCasts_S512x16_S512x16x1 : S512x16.ShapeCasts S512x16x1
  broadcasts_S512x16x1_S512x16x256 : S512x16x1.Broadcasts S512x16x256
  shapeCasts_S512x16x256_S512x4096 : S512x16x256.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .i32 = 32 ∨ (Rect.block (s := S4096x4096) S512x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x16.size a ≤ S4096x16.size a
  hwx1_1 : ∀ i : grid1.Coords, EltTy.bits .f32 = 32 ∨ (Rect.block (s := S4096x16) S512x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x16.size a ≤ S4096x16.size a
  hwx1_2 : ∀ i : grid1.Coords, EltTy.bits .f32 = 32 ∨ (Rect.block (s := S4096x16) S512x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S4096x4096.size a
  hwx1_3 : ∀ i : grid1.Coords, EltTy.bits .bf16 = 32 ∨ (Rect.block (s := S4096x4096) S512x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x4096.size a
  hwx2_0 : ∀ i : grid2.Coords, EltTy.bits .bf16 = 32 ∨ (Rect.block (s := S8192x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .bf16 = 32 ∨ (Rect.block (s := S4096x4096) S512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S8192x4096.size a
  hwx2_2 : ∀ i : grid2.Coords, EltTy.bits .f32 = 32 ∨ (Rect.block (s := S8192x4096) S1024x512.size (cc2_transform_2 i) (hinb2_2 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x16 : Shape := ⟨2, ![4096, 16]⟩
abbrev S_ : Shape := ⟨0, ![]⟩
abbrev S8192 : Shape := ⟨1, ![8192]⟩
abbrev S8192x1 : Shape := ⟨2, ![8192, 1]⟩
abbrev S4096x16x256 : Shape := ⟨3, ![4096, 16, 256]⟩
abbrev S4096x16x1 : Shape := ⟨3, ![4096, 16, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x16, .f32⟩
  | .hbm, ⟨3, _⟩ => ⟨S4096x16, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .i1⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S8192x4096, .f32⟩
  | .hbm, ⟨60, _⟩ => ⟨S8192x4096, .f32⟩
  | .hbm, ⟨61, _⟩ => ⟨S_, .f32⟩
  | .hbm, ⟨62, _⟩ => ⟨S8192x4096, .f32⟩
  | .hbm, ⟨63, _⟩ => ⟨S8192x4096, .f32⟩
  | .hbm, ⟨64, _⟩ => ⟨S8192x4096, .f32⟩
  | .hbm, ⟨65, _⟩ => ⟨S8192x4096, .f32⟩
  | .hbm, ⟨66, _⟩ => ⟨S8192x4096, .f32⟩
  | .hbm, ⟨67, _⟩ => ⟨S8192x4096, .f32⟩
  | .hbm, ⟨68, _⟩ => ⟨S4096x4096, .f32⟩
  | .hbm, ⟨69, _⟩ => ⟨S4096x16x256, .f32⟩
  | .hbm, ⟨70, _⟩ => ⟨S4096x16x1, .f32⟩
  | .hbm, ⟨71, _⟩ => ⟨S4096x16x256, .f32⟩
  | .hbm, ⟨72, _⟩ => ⟨S4096x16x256, .f32⟩
  | .hbm, ⟨73, _⟩ => ⟨S4096x16x1, .f32⟩
  | .hbm, ⟨74, _⟩ => ⟨S4096x16x256, .f32⟩
  | .hbm, ⟨75, _⟩ => ⟨S4096x16x256, .f32⟩
  | .hbm, ⟨76, _⟩ => ⟨S4096x4096, .f32⟩
  | .hbm, ⟨77, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_c_10 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_11 : Ref sig .tc := ⟨.hbm, 56, rfl⟩
abbrev main_c_12 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  shapeCasts_S4096x4096_S4096x16x256 : S4096x4096.ShapeCasts S4096x16x256
  bcast_S4096x16_S4096x16x1_0_1 : S4096x16.BroadcastsInDim S4096x16x1 (![0, 1] : Fin 2 → Fin S4096x16x1.rank)
  bcast_S4096x16x1_S4096x16x256_0_1_2 : S4096x16x1.BroadcastsInDim S4096x16x256 (![0, 1, 2] : Fin 3 → Fin S4096x16x256.rank)
  shapeCasts_S4096x16x256_S4096x4096 : S4096x16x256.ShapeCasts S4096x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.QuantLinearSpec.lean ====
/-
  The mathematics of the certificate, free of any program: a linear layer whose activation is quantized per row
  (token) to eight bits and dequantized again, and whose weight is a four-bit integer array dequantized group by
  group, all read on the extended reals.

  For a row `r` of the activation: `lo = min (min r) 0`, `hi = max (max r) 0`, the step
  `scale = max ((hi - lo) / 255) ε`, the zero point `zp = rne (clip (±128/127 ∓ lo/scale or hi/scale))` chosen by the
  sign of `(-128 + lo/scale) + (127 + hi/scale)`, and an entry `x` of the row becomes
  `(clip (rne (x / scale) + zp) - zp) * scale` — `rne` rounding to the nearest integer, ties to even, `clip` clamping
  to [-128, 127]. For the weight: entry (n, k) belongs to group `k / 256` of row `n` and becomes
  `(w - zero (n, k / 256)) * scale (n, k / 256)`. The result at (p, n) is the sum over `k` of the products of the two.
-/
import Idealize.ShloMosaic.PureOps.Ideal
import Idealize.ShloMosaic.Lib.ValueIdx

noncomputable section

namespace Cert.QuantLinear

open Idealize.ShloMosaic Idealize.ShloMosaic.ValueIdx

/-- Rounding to the nearest integer, ties to even, infinities fixed. -/
abbrev rne (x : EReal) : EReal := Ideal.liftRound Ideal.roundHalfEven x

/-- The eight-bit range's ends, as the integers -128 and 127 converted. -/
abbrev qlo : EReal := FloatOps.sitofp (F := Ideal) .f32 (4294967168#32 : BitVec 32)
abbrev qhi : EReal := FloatOps.sitofp (F := Ideal) .f32 (127#32 : BitVec 32)

/-- Clamping to the eight-bit range: first from below, then from above. -/
abbrev clip (x : EReal) : EReal := min qhi (max qlo x)

/-- A row's least entry, folded from +∞, and its greatest, folded from -∞. -/
def rowMin (row : Fin 4096 → EReal) : EReal :=
  (Finset.univ : Finset (Fin 4096)).fold min (Ideal.ofBits .f32 0x7F800000#32) row
def rowMax (row : Fin 4096 → EReal) : EReal :=
  (Finset.univ : Finset (Fin 4096)).fold max (Ideal.ofBits .f32 0xFF800000#32) row

/-- The quantization step of a row with least entry `mn` and greatest `mx`: the range, widened to hold zero,
    over 255, and at least ε. -/
def stepOf (mn mx : EReal) : EReal :=
  max (Ideal.div (max mx (Ideal.ofBits .f32 0x00000000#32) - min mn (Ideal.ofBits .f32 0x00000000#32))
      (Ideal.ofBits .f32 0x437F0000#32)) (Ideal.ofBits .f32 0x34000000#32)

/-- The row's zero point: the range's lower or upper end moved by the scaled extreme, whichever the sign of the
    summed errors selects, clamped and rounded. -/
def zeroOf (mn mx : EReal) : EReal :=
  rne (clip (Scalar.select
    (Ideal.cmp .ogt
      ((Ideal.ofBits .f32 0xC3000000#32 + Ideal.div (min mn (Ideal.ofBits .f32 0x00000000#32)) (stepOf mn mx))
        + (Ideal.ofBits .f32 0x42FE0000#32 + Ideal.div (max mx (Ideal.ofBits .f32 0x00000000#32)) (stepOf mn mx)))
      (Ideal.ofBits .f32 0x00000000#32))
    (Ideal.ofBits .f32 0xC3000000#32 - Ideal.div (min mn (Ideal.ofBits .f32 0x00000000#32)) (stepOf mn mx))
    (Ideal.ofBits .f32 0x42FE0000#32 - Ideal.div (max mx (Ideal.ofBits .f32 0x00000000#32)) (stepOf mn mx))))

/-- An entry `x` of such a row, quantized and dequantized. -/
def fakeQuantOf (mn mx x : EReal) : EReal :=
  (clip (rne (Ideal.div x (stepOf mn mx)) + zeroOf mn mx) - zeroOf mn mx) * stepOf mn mx

/-- The activation, each entry quantized and dequantized by its own row's step and zero point. -/
def actQ (x : (⟨2, ![8192, 4096]⟩ : Shape).Idx → EReal) : (⟨2, ![8192, 4096]⟩ : Shape).Idx → EReal :=
  fun i => fakeQuantOf (rowMin fun k => x (ix2 (i 0) k)) (rowMax fun k => x (ix2 (i 0) k)) (x i)

/-- The group of 256 consecutive columns a column belongs to. -/
def grp (k : Fin 4096) : Fin 16 := ⟨k.val / 256, by have := k.isLt; omega⟩

/-- The weight, each integer entry shifted by its group's zero and scaled by its group's scale. -/
def wDq (w : (⟨2, ![4096, 4096]⟩ : Shape).Idx → BitVec 32) (s z : (⟨2, ![4096, 16]⟩ : Shape).Idx → EReal) :
    (⟨2, ![4096, 4096]⟩ : Shape).Idx → EReal :=
  fun i => (FloatOps.sitofp (F := Ideal) .f32 (w i) - z (ix2 (i 0) (grp (i 1)))) * s (ix2 (i 0) (grp (i 1)))

/-- The layer's product: entry (p, n) is the sum over `k` of `a (p, k) * b (n, k)`. -/
def linear (a : (⟨2, ![8192, 4096]⟩ : Shape).Idx → EReal) (b : (⟨2, ![4096, 4096]⟩ : Shape).Idx → EReal) :
    (⟨2, ![8192, 4096]⟩ : Shape).Idx → EReal :=
  fun i => ∑ k : Fin 4096, a (ix2 (i 0) k) * b (ix2 (i 1) k)

/-- The whole layer as one function of its four argument arrays. -/
def out (x : (⟨2, ![8192, 4096]⟩ : Shape).Idx → EReal) (w : (⟨2, ![4096, 4096]⟩ : Shape).Idx → BitVec 32)
    (s z : (⟨2, ![4096, 16]⟩ : Shape).Idx → EReal) : (⟨2, ![8192, 4096]⟩ : Shape).Idx → EReal :=
  linear (actQ x) (wDq w s z)

end Cert.QuantLinear

end
-- ==== Proof.KernelRun.lean ====
/-
  The run of the idealized kernel program with its RESULT named.

  The program is three pipelined regions in a row. The buffer contents at the boundaries are a fold from the launch
  memory: `W0` at launch, `W1` after the first region (its arrays at what its write-backs leave, everything else as
  entered), `W2` after the second, `W3` after the third. Every weakly fair execution terminates without a fault in a state
  whose unscoped buffers hold `W3`; read at the result array that is the first conjunct below, read at the four
  argument arrays (which no region writes) it is the launch memory.
-/
import proofs.«150079_j3212635537641_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result array at the last boundary's contents and the four
    argument arrays as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.RunValue

end
-- ==== Proof.KernelValue.lean ====
/-
  The result array of the idealized kernel program as ONE function of its four argument arrays.

  The third region's output is the contraction `linear` of the two arrays it reads; the first of those is the first
  region's output, untouched by the second region, and is the quantized activation `actQ` of the first argument; the
  second is the second region's output, the dequantized weight `wDq` of the other three arguments, which the first
  region does not touch. Substituting, the result is `out` of the four arguments. The three facts about the regions are
  taken here as hypotheses at an arbitrary entry contents `V`; each is proved in its own module.
-/
import proofs.«150079_j3212635537641_1_alg».proof.Proof.Gen.KernelIdeal.Frame
import proofs.«150079_j3212635537641_1_alg».proof.Proof.QuantLinearSpec

set_option maxRecDepth 16384

noncomputable section

namespace Cert.KernelIdeal.RunValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The contents of the result array at the last boundary, from the three regions' output arrays. -/
theorem result_eq
    (hq : ∀ (V : (c : Dev nD) → (b : Ref sig .tc) → Buf (Elt Ideal) ((c : Thread nD τ).loc b)) (c : Dev nD),
      (dat0 (F := Ideal) V c).arrAt 1 cfg0.N = Cert.QuantLinear.actQ (V c main_arg0))
    (hd : ∀ (V : (c : Dev nD) → (b : Ref sig .tc) → Buf (Elt Ideal) ((c : Thread nD τ).loc b)) (c : Dev nD),
      (dat1 (F := Ideal) V c).arrAt 3 cfg1.N = Cert.QuantLinear.wDq (V c main_arg1) (V c main_arg2) (V c main_arg3))
    (hm : ∀ (V : (c : Dev nD) → (b : Ref sig .tc) → Buf (Elt Ideal) ((c : Thread nD τ).loc b)) (c : Dev nD),
      (dat2 (F := Ideal) V c).arrAt 2 cfg2.N = Cert.QuantLinear.linear (V c main_v0) (V c main_v1))
    (c : Dev nD) :
    W3 (F := Ideal) m ρ c (Proc.devRef .tc main_v2)
      = Cert.QuantLinear.out (m ((c : Thread nD τ).loc main_arg0)) (m ((c : Thread nD τ).loc main_arg1))
          (m ((c : Thread nD τ).loc main_arg2)) (m ((c : Thread nD τ).loc main_arg3)) := by
  -- the activation as the third region finds it: the first region's output, kept by the second
  have hact : V2 (F := Ideal) m ρ c main_v0 = Cert.QuantLinear.actQ (m ((c : Thread nD τ).loc main_arg0)) :=
    calc V2 (F := Ideal) m ρ c main_v0
        = W1 m ρ c (Proc.devRef .tc main_v0) := W2_of_ne m ρ c main_v0 (by decide)
      _ = (dat0 (V0 m ρ) c).arrAt 1 cfg0.N := W1_arr m ρ c 1
      _ = Cert.QuantLinear.actQ (V0 m ρ c main_arg0) := hq (V0 m ρ) c
      _ = _ := rfl
  -- the weight as the third region finds it: the second region's output, of arguments the first region kept
  have hw : V2 (F := Ideal) m ρ c main_v1
      = Cert.QuantLinear.wDq (m ((c : Thread nD τ).loc main_arg1)) (m ((c : Thread nD τ).loc main_arg2)) (m ((c : Thread nD τ).loc main_arg3)) :=
    calc V2 (F := Ideal) m ρ c main_v1
        = (dat1 (V1 m ρ) c).arrAt 3 cfg1.N := W2_arr m ρ c 3
      _ = Cert.QuantLinear.wDq (V1 m ρ c main_arg1) (V1 m ρ c main_arg2) (V1 m ρ c main_arg3) := hd (V1 m ρ) c
      _ = _ := by
          rw [show V1 (F := Ideal) m ρ c main_arg1 = m ((c : Thread nD τ).loc main_arg1) from W1_of_ne m ρ c main_arg1 (by decide),
              show V1 (F := Ideal) m ρ c main_arg2 = m ((c : Thread nD τ).loc main_arg2) from W1_of_ne m ρ c main_arg2 (by decide),
              show V1 (F := Ideal) m ρ c main_arg3 = m ((c : Thread nD τ).loc main_arg3) from W1_of_ne m ρ c main_arg3 (by decide)]
  calc W3 (F := Ideal) m ρ c (Proc.devRef .tc main_v2)
      = (dat2 (V2 m ρ) c).arrAt 2 cfg2.N := W3_arr m ρ c 2
    _ = Cert.QuantLinear.linear (V2 m ρ c main_v0) (V2 m ρ c main_v1) := hm (V2 m ρ) c
    _ = _ := by rw [hact, hw]; rfl

end Cert.KernelIdeal.RunValue

end
-- ==== Proof.ReferenceOut.lean ====
/-
  The reference program's result as the specification's `out`.

  Its last operation contracts the second axis of the quantized activation with the second axis of the dequantized
  weight: entry (p, n) is the sum over `k` of the activation stage at (p, k) times the weight stage at (n, k). With the
  activation stage being `actQ` of the first argument and the weight stage `wDq` of the other three (each proved in its
  own module, taken here as hypotheses), that sum is `linear (actQ x) (wDq w s z)` at (p, n), which is `out`.
-/
import proofs.«150079_j3212635537641_1_alg».proof.Proof.Gen.ReferenceIdeal.Read
import proofs.«150079_j3212635537641_1_alg».proof.Proof.QuantLinearSpec

set_option maxRecDepth 16384

noncomputable section

namespace Cert.ReferenceIdeal.RefOut

open Idealize.ShloMosaic Idealize.ShloMosaic.TcCoe Idealize.ShloMosaic.ValueIdx Idealize.SL.Sem
open Cert.ReferenceIdeal Cert.ReferenceIdeal.Read

/-- The left factor's index at contraction coordinate `k` is (row of the output, k). -/
theorem lidx_eq (i : S8192x4096.Idx) (k : Fin 4096) : lidx_main_v48 i k = ix2 (i 0) k :=
  funext fun a => Fin.ext (by match a with | ⟨0, _⟩ => rfl | ⟨1, _⟩ => rfl)

/-- The right factor's index at contraction coordinate `k` is (column of the output, k). -/
theorem ridx_eq (i : S8192x4096.Idx) (k : Fin 4096) : ridx_main_v48 i k = ix2 (i 1) k :=
  funext fun a => Fin.ext (by match a with | ⟨0, _⟩ => rfl | ⟨1, _⟩ => rfl)

/-- The reference's result stage is `out` of the four arguments. -/
theorem ref_out
    (hact : ∀ x : (⟨S8192x4096, .f32⟩ : BufTy).Contents (Elt Ideal), val_main_v38 (F := Ideal) x = Cert.QuantLinear.actQ x)
    (hw : ∀ (w : (⟨S4096x4096, .i32⟩ : BufTy).Contents (Elt Ideal)) (s z : (⟨S4096x16, .f32⟩ : BufTy).Contents (Elt Ideal)),
      val_main_v47 (F := Ideal) w s z = Cert.QuantLinear.wDq w s z)
    (x : (⟨S8192x4096, .f32⟩ : BufTy).Contents (Elt Ideal)) (w : (⟨S4096x4096, .i32⟩ : BufTy).Contents (Elt Ideal))
    (s z : (⟨S4096x16, .f32⟩ : BufTy).Contents (Elt Ideal)) :
    val_main_v48 (F := Ideal) x w s z = Cert.QuantLinear.out x w s z := by
  funext i
  rw [val_main_v48_apply, hact, hw]
  show _ = ∑ k : Fin 4096, Cert.QuantLinear.actQ x (ix2 (i 0) k) * Cert.QuantLinear.wDq w s z (ix2 (i 1) k)
  refine Finset.sum_congr rfl fun k _ => ?_
  rw [lidx_eq, ridx_eq]
  rfl

end Cert.ReferenceIdeal.RefOut

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibRowMin.lean ====
/-
  A float minimum-reduction over one axis, read on the extended reals at a reduced index: it is the fold of `min`,
  from the accumulator's value, over the coordinates of the reduced axis, the source being read at the reduced index
  with that coordinate inserted. (The library states the same fact for the maximum-reduction; this is its twin.)
-/
import Idealize.ShloMosaic.PureOps.Ideal.Laws

namespace Cert.LibRowMin

open Idealize.ShloMosaic

variable {φ : FTy}

/-- At the extended reals a float `vector.multi_reduction <minimumf>` over the single axis `a` is, at the reduced index
    `j`, the fold of `min` from the accumulator's value over that axis's coordinates `k`, of the source at `h.lift j k`
    (the index `j` with `k` inserted on axis `a`): the indices that drop to `j` are exactly those, each once, and `min`
    commutes and associates, so the order of the fold does not matter. General in the shapes, the axis and the format. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.LibRowMin
-- ==== Proof.QuantizePayload.lean ====
/-
  The quantize kernel's arithmetic on one block, entry by entry on the extended reals.

  A block is 512 whole rows of 4096 entries. For a row `r` the body takes the row's least entry (folded from +∞) and
  greatest entry (folded from -∞) over the 4096 columns, widens the range to hold zero, and from these two numbers alone
  forms the row's step and zero point; every entry `(r, q)` of the result then depends only on the entry `(r, q)` of
  the block and on those two row statistics. Read at an index, each operation of the body is the specification's
  scalar operation on the operands read at that index, so the stored value at `(r, q)` is the specification's
  quantize-dequantize of the entry by its own row's statistics.

  Each value below is read with the values it is computed from held as arbitrary vectors: what is proved of them
  earlier is substituted afterwards, at the one index concerned.
-/
import proofs.«150079_j3212635537641_1_alg».proof.Proof.QuantLinearSpec
import proofs.«150079_j3212635537641_1_alg».proof.Proof.LibLayout
import proofs.«150079_j3212635537641_1_alg».proof.Proof.LibRowMin
import proofs.«150079_j3212635537641_1_alg».proof.Proof.Gen.KernelIdeal.Skeleton
import Idealize.ShloMosaic.PureOps.Ideal.Laws
import Idealize.ShloMosaic.Lib.ValueIdx

set_option maxRecDepth 16384

noncomputable section

namespace Cert.KernelIdeal.QuantizeValue

open Idealize.ShloMosaic Idealize.ShloMosaic.TcCoe Idealize.ShloMosaic.ValueIdx Idealize.SL.Sem Cert.KernelIdeal Cert.KernelIdeal.Gen
open Cert.QuantLinear

/-- The index of row `r` with the column `k` inserted on the reduced axis is the entry `(r, k)`. -/
theorem lift_row (h : S512x4096.Reduces [1] S512) (r : Fin 512) (k : Fin 4096) :
    h.lift (ix1 r) k = ix2 r k := by
  funext a; apply Fin.ext
  match a with
  | ⟨0, _⟩ => rfl
  | ⟨1, _⟩ => rfl

/-- The minimum-reduction over the columns, at row `r`: the least entry of that row, folded from +∞. -/
theorem rowMin_read (x0 : FVec Ideal S512x4096 .f32) (h : S512x4096.Reduces [1] S512) (hφ : FKind.Formats .f32)
    (hacc : (0x7F800000#32 : BitVec 32) = FKind.minimumf.neutral .f32 hφ) (r : Fin 512) :
    multiReduction .minimumf [1] S512 x0 0x7F800000#32 h hφ hacc (ix1 r) = rowMin fun k => x0 (ix2 r k) :=
  (Cert.LibRowMin.multiReduction_minimumf_single x0 0x7F800000#32 h hφ hacc (ix1 r)).trans
    (congrArg (fun f : Fin 4096 → EReal => (Finset.univ : Finset (Fin 4096)).fold min (Ideal.ofBits .f32 0x7F800000#32) f)
      (funext fun k => congrArg x0 (lift_row h r k)))

/-- The maximum-reduction over the columns, at row `r`: the greatest entry of that row, folded from -∞. -/
theorem rowMax_read (x0 : FVec Ideal S512x4096 .f32) (h : S512x4096.Reduces [1] S512) (hφ : FKind.Formats .f32)
    (hacc : (0xFF800000#32 : BitVec 32) = FKind.maximumf.neutral .f32 hφ) (r : Fin 512) :
    multiReduction .maximumf [1] S512 x0 0xFF800000#32 h hφ hacc (ix1 r) = rowMax fun k => x0 (ix2 r k) :=
  (Ideal.multiReduction_maximumf_single x0 0xFF800000#32 h hφ hacc (ix1 r)).trans
    (congrArg (fun f : Fin 4096 → EReal => (Finset.univ : Finset (Fin 4096)).fold max (Ideal.ofBits .f32 0xFF800000#32) f)
      (funext fun k => congrArg x0 (lift_row h r k)))

/-- Any vector of 512 values, set as a column and bounded above by a constant: at row `r`, the lesser of the value
    there and the constant. -/
theorem col_min_read (v : FVec Ideal S512 .f32) (c : Ideal .f32) (r : Fin 512) (z : Fin 1) :
    minimumf (shapeCast S512x1 v shapeCasts_S512_S512x1) (broadcast S512x1 c) (ix2 r z) = min (v (ix1 r)) c :=
  congrArg (fun a : EReal => min a c) (Cert.LibLayout.shapeCast_a_a1_apply v shapeCasts_S512_S512x1 r z)

/-- The same, bounded below: the greater of the value at row `r` and the constant. -/
theorem col_max_read (v : FVec Ideal S512 .f32) (c : Ideal .f32) (r : Fin 512) (z : Fin 1) :
    maximumf (shapeCast S512x1 v shapeCasts_S512_S512x1) (broadcast S512x1 c) (ix2 r z) = max (v (ix1 r)) c :=
  congrArg (fun a : EReal => max a c) (Cert.LibLayout.shapeCast_a_a1_apply v shapeCasts_S512_S512x1 r z)

/-- Three readings that hold for every word and every operand, so that none of them ever has to be computed at a
    particular constant: a comparison of two values, an integer word converted on the scalar unit, and an entry of
    a rounded vector. -/
theorem cmp_read (p : CmpFPredicate) (a b : Ideal .f32) : FloatOps.cmpf p a b = Ideal.cmp p a b := rfl
theorem sitofp_read (b : BitVec 32) : Scalar.sitofp (F := Ideal) .f32 b = FloatOps.sitofp (F := Ideal) .f32 b := rfl
theorem roundeven_read {s : Shape} (a : FVec Ideal s .f32) (i : s.Idx) : roundeven a i = rne (a i) := rfl

variable (x0 : Vec Ideal S512x4096 .f32) (r : Fin 512)

/-- The range's lower end at row `r`: the row's least entry, or zero if that is less. -/
theorem lo_read (z : Fin 1) :
    k0_pay2 x0 (ix2 r z) = min (rowMin fun k => x0 (ix2 r k)) (Ideal.ofBits .f32 0x00000000#32) :=
  (col_min_read (multiReduction .minimumf [1] S512 x0 0x7F800000#32 reduces_S512x4096_S512 (.inl rfl) rfl)
      (Scalar.ofBits .f32 0x00000000#32) r z).trans
    (congrArg (fun a : EReal => min a (Ideal.ofBits .f32 0x00000000#32))
      (rowMin_read x0 reduces_S512x4096_S512 (.inl rfl) rfl r))

/-- The range's upper end at row `r`: the row's greatest entry, or zero if that is greater. -/
theorem hi_read (z : Fin 1) :
    k0_pay3 x0 (ix2 r z) = max (rowMax fun k => x0 (ix2 r k)) (Ideal.ofBits .f32 0x00000000#32) :=
  (col_max_read (multiReduction .maximumf [1] S512 x0 0xFF800000#32 reduces_S512x4096_S512 (.inl rfl) rfl)
      (Scalar.ofBits .f32 0x00000000#32) r z).trans
    (congrArg (fun a : EReal => max a (Ideal.ofBits .f32 0x00000000#32))
      (rowMax_read x0 reduces_S512x4096_S512 (.inl rfl) rfl r))

/-- The step's arithmetic read at an index, for any two columns in place of the range's ends. -/
theorem step_pt (hi lo : FVec Ideal S512x1 .f32) (i : S512x1.Idx) :
    maximumf (divf (subf hi lo) (broadcast S512x1 (Scalar.ofBits (F := Ideal) .f32 0x437F0000#32)))
        (broadcast S512x1 (Scalar.ofBits (F := Ideal) .f32 0x34000000#32)) i
      = max (Ideal.div (hi i - lo i) (Ideal.ofBits .f32 0x437F0000#32)) (Ideal.ofBits .f32 0x34000000#32) := by
  rw [maximumf_apply, divf_apply, subf_apply, broadcast_apply, broadcast_apply, Ideal.ofBits_def, Ideal.ofBits_def]

/-- The specification's step, written out, for any least and greatest entries. -/
theorem step_scalar (mn mx : EReal) :
    max (Ideal.div (max mx (Ideal.ofBits .f32 0x00000000#32) - min mn (Ideal.ofBits .f32 0x00000000#32))
        (Ideal.ofBits .f32 0x437F0000#32)) (Ideal.ofBits .f32 0x34000000#32) = stepOf mn mx := rfl

/-- The step at row `r`: the widened range over 255, and at least ε. -/
theorem step_read (z : Fin 1) :
    k0_pay4 x0 (ix2 r z) = stepOf (rowMin fun k => x0 (ix2 r k)) (rowMax fun k => x0 (ix2 r k)) :=
  (step_pt (k0_pay3 x0) (k0_pay2 x0) (ix2 r z)).trans
    ((congrArg₂ (fun a b : EReal => max (Ideal.div (a - b) (Ideal.ofBits .f32 0x437F0000#32)) (Ideal.ofBits .f32 0x34000000#32))
        (hi_read x0 r z) (lo_read x0 r z)).trans
      (step_scalar _ _))

/-- The zero point at row `r`: the end of the eight-bit range selected by the sign of the summed errors, moved by the
    scaled extreme, clamped and rounded. -/
theorem zero_read (z : Fin 1) :
    k0_pay5 x0 (ix2 r z) = zeroOf (rowMin fun k => x0 (ix2 r k)) (rowMax fun k => x0 (ix2 r k)) := by
  have e2 := lo_read x0 r z
  have e3 := hi_read x0 r z
  have e4 := step_read x0 r z
  unfold k0_pay5
  generalize k0_pay2 x0 = lo at e2 ⊢
  generalize k0_pay3 x0 = hi at e3 ⊢
  generalize k0_pay4 x0 = st at e4 ⊢
  simp only [roundeven_read, minimumf_apply, maximumf_apply, select_apply, cmpf_apply, addf_apply, subf_apply,
    divf_apply, broadcast_apply, Ideal.ofBits_def, cmp_read, sitofp_read]
  rw [e2, e3, e4]
  rfl

/-- The rounded quotient plus the zero point, at the entry `(r, q)`. -/
theorem shifted_read (q : Fin 4096) :
    k0_pay6 x0 (ix2 r q)
      = rne (Ideal.div (x0 (ix2 r q)) (stepOf (rowMin fun k => x0 (ix2 r k)) (rowMax fun k => x0 (ix2 r k))))
        + zeroOf (rowMin fun k => x0 (ix2 r k)) (rowMax fun k => x0 (ix2 r k)) := by
  have e4 := fun z => step_read x0 r z
  have e5 := fun z => zero_read x0 r z
  unfold k0_pay6
  generalize k0_pay4 x0 = st at e4 ⊢
  generalize k0_pay5 x0 = zp at e5 ⊢
  simp only [addf_apply, roundeven_read, divf_apply, Cert.LibLayout.broadcastTo_a1_ab_apply]
  rw [e4, e5]

/-- THE STORED VALUE at the entry `(r, q)` of a block: the entry quantized and dequantized by its own row's least and
    greatest entries. -/
theorem stored_read (q : Fin 4096) :
    k0_pay1 (k0_pay4 x0) (k0_pay5 x0) (k0_pay6 x0) 127#32 (k0_pay7 (F := Ideal)) (ix2 r q)
      = fakeQuantOf (rowMin fun k => x0 (ix2 r k)) (rowMax fun k => x0 (ix2 r k)) (x0 (ix2 r q)) := by
  have e4 := fun z => step_read x0 r z
  have e5 := fun z => zero_read x0 r z
  have e6 := shifted_read x0 r q
  unfold k0_pay1 k0_pay7
  generalize k0_pay4 x0 = st at e4 ⊢
  generalize k0_pay5 x0 = zp at e5 ⊢
  generalize k0_pay6 x0 = sh at e6 ⊢
  simp only [truncf_apply, mulf_apply, subf_apply, minimumf_apply, maximumf_apply, broadcast_apply,
    Cert.LibLayout.broadcastTo_a1_ab_apply, sitofp_read]
  rw [e4, e5, e6]
  rfl

end Cert.KernelIdeal.QuantizeValue

end
-- ==== Proof.QuantizeArray.lean ====
/-
  The quantized activation as a whole array.

  The quantization runs over a grid of 16 points. Point `t` takes rows `512 * b` to `512 * b + 511` of the activation, all
  4096 columns, `b` the point's block index, and writes back the same rows of the result. A block of rows holds WHOLE
  rows, so the least and greatest entries the body finds in row `r` of its block are those of row `512 * b + r` of the
  array, and entry (r, q) of what the point writes is that row's entry `q` quantized and dequantized with the row's own
  step and zero point: the point writes back its own rows of the specification's quantized activation. The 16 blocks
  of 512 rows fill the 8192 rows (row `p` lies in block `p / 512`), so after the run the whole array is the quantized
  activation.
-/
import proofs.«150079_j3212635537641_1_alg».proof.Proof.QuantizePayload
import proofs.«150079_j3212635537641_1_alg».proof.Proof.Gen.KernelIdeal.Frame
import Idealize.ShloMosaic.Lib.Pipeline.Value
import Idealize.ShloMosaic.Lib.ValueIdx

set_option maxRecDepth 16384

noncomputable section

namespace Cert.KernelIdeal.QuantizeValue

open Idealize.ShloMosaic Idealize.ShloMosaic.TcCoe Idealize.ShloMosaic.ValueIdx Idealize.SL.Sem Cert.KernelIdeal Cert.KernelIdeal.Gen
open Idealize.ShloMosaic.Pipeline (Dat)
open Cert.QuantLinear (rowMin rowMax fakeQuantOf actQ)

variable (V : (c : Dev nD) → (b : Ref sig .tc) → Buf (Elt Ideal) ((c : Thread nD τ).loc b))

/-- The body loads and stores whole staging buffers: its rectangles start at the corner. -/
theorem corner : (![0, 0] : Fin 2 → Nat) = fun _ => 0 := funext fun a => by fin_cases a <;> rfl

/-- The block indices, over the 16 points: the activation's block is at the result's block of rows, both span all
    4096 columns, and the blocks of rows are numbered 0 to 15. -/
theorem row_blocks : ∀ t : Fin cfg0.N,
      win0_0.index t (0 : Fin 2) = win0_1.index t (0 : Fin 2) ∧ win0_0.index t (1 : Fin 2) = 0
    ∧ win0_1.index t (0 : Fin 2) ≤ 15 ∧ win0_1.index t (1 : Fin 2) = 0 :=
  (by decide +kernel : ∀ t : Fin grid0.N, _)

/-- Every block of rows is some point's. -/
theorem row_blocks_onto : ∀ b : Fin 16, ∃ t : Fin cfg0.N, win0_1.index t = ![b.val, 0] :=
  (by decide +kernel : ∀ b : Fin 16, ∃ t : Fin grid0.N, win0_1.index t = ![b.val, 0])

/-- The activation's block at point `t`, entry (r, k), is the activation at row `512 * b + r`, column `k`: a block of
    rows holds whole rows. -/
theorem act_block (c : Dev nD) (t : Fin cfg0.N) (r : Fin 512) (k : Fin 4096) (p : Fin 8192)
    (hp : p.val = win0_1.index t (0 : Fin 2) * 512 + r.val) :
    (iblk0 V c 0 t : Vec Ideal S512x4096 .f32) (ix2 r k) = (V c main_arg0 : S8192x4096.Idx → EReal) (ix2 p k) := by
  obtain ⟨e0, e1, -, -⟩ := row_blocks t
  unfold iblk0
  rw [View.read_apply]
  show (V c main_arg0 : S8192x4096.Idx → EReal) (((cfg0.win 0).blk t).view.emb (ix2 r k))
      = (V c main_arg0 : S8192x4096.Idx → EReal) (ix2 p k)
  refine congrArg (V c main_arg0 : S8192x4096.Idx → EReal) (funext fun a => Fin.ext ?_)
  match a with
  | ⟨0, _⟩ => show win0_0.index t (0 : Fin 2) * 512 + 1 * r.val = p.val; omega
  | ⟨1, _⟩ => show win0_0.index t (1 : Fin 2) * 4096 + 1 * k.val = k.val; omega

/-- What the body leaves in the result's staging buffer at entry (r, q), from the block it loaded: the entry quantized
    and dequantized by the least and greatest entries of row `r` of the block. -/
theorem block_apply (x0 : Vec Ideal S512x4096 .f32) (r : Fin 512) (q : Fin 4096) :
    out0_1 (F := Ideal) x0 (ix2 r q)
      = fakeQuantOf (rowMin fun k => x0 (ix2 r k)) (rowMax fun k => x0 (ix2 r k)) (x0 (ix2 r q)) := by
  unfold out0_1
  rw [View.canon_unit_zero corner]
  simp only [View.ld_unit_zero (S := S512x4096) corner]
  exact stored_read x0 r q

/-- The quantize-dequantize of an entry depends on its row only through the row's two extremes. -/
theorem fakeQuantOf_congr {a a' b b' x x' : EReal} (ha : a = a') (hb : b = b') (hx : x = x') :
    fakeQuantOf a b x = fakeQuantOf a' b' x' := by rw [ha, hb, hx]

/-- Entry (r, q) of what the body leaves at point `t` is the quantized activation at row `512 * b + r`, column `q`: row
    `r` of the block IS row `512 * b + r` of the array, so the two rows have the same extremes. -/
theorem flushed_entry (c : Dev nD) (t : Fin cfg0.N) (r : Fin 512) (q : Fin 4096) (p : Fin 8192)
    (hp : p.val = win0_1.index t (0 : Fin 2) * 512 + r.val) :
    out0_1 (F := Ideal) (iblk0 V c 0 t) (ix2 r q) = actQ (V c main_arg0) (ix2 p q) := by
  have hrow : (fun k : Fin 4096 => (iblk0 V c 0 t : Vec Ideal S512x4096 .f32) (ix2 r k))
      = fun k : Fin 4096 => (V c main_arg0 : S8192x4096.Idx → EReal) (ix2 p k) :=
    funext fun k => act_block V c t r k p hp
  exact (block_apply (iblk0 V c 0 t) r q).trans
    (fakeQuantOf_congr (congrArg rowMin hrow) (congrArg rowMax hrow) (act_block V c t r q p hp))

/-- WHAT POINT `t` WRITES BACK is its block of rows of the quantized activation of the array as the region finds it. -/
theorem flushed_eq (c : Dev nD) (t : Fin cfg0.N) :
    (dat0 (F := Ideal) V c).flushed 1 t
      = ((cfg0.win 1).blk t).view.read (Elt Ideal) (actQ (V c main_arg0)) := by
  show (cfg0.win 1).cut (grid0.coords t) ((dat0 (F := Ideal) V c).after 1 t) = _
  rw [after0_1]
  obtain ⟨-, -, b0, b1⟩ := row_blocks t
  funext j
  have hj0 : (j 0).val < 512 := (j 0).isLt
  have hj1 : (j 1).val < 4096 := (j 1).isLt
  have hx : (cfg0.win 1).xinj (grid0.coords t) j = ix2 (⟨(j 0).val, hj0⟩ : Fin 512) (⟨(j 1).val, hj1⟩ : Fin 4096) :=
    funext fun a => match a with
      | ⟨0, _⟩ => rfl
      | ⟨1, _⟩ => rfl
  have hi : ((cfg0.win 1).blk t).view.emb j
      = ix2 (⟨win0_1.index t (0 : Fin 2) * 512 + (j 0).val, by omega⟩ : Fin 8192) (⟨(j 1).val, hj1⟩ : Fin 4096) := by
    funext a
    apply Fin.ext
    match a with
    | ⟨0, _⟩ => show win0_1.index t (0 : Fin 2) * 512 + 1 * (j 0).val = win0_1.index t (0 : Fin 2) * 512 + (j 0).val; omega
    | ⟨1, _⟩ => show win0_1.index t (1 : Fin 2) * 4096 + 1 * (j 1).val = (j 1).val; omega
  show out0_1 (F := Ideal) (iblk0 V c 0 t) ((cfg0.win 1).xinj (grid0.coords t) j)
      = actQ (V c main_arg0) (((cfg0.win 1).blk t).view.emb j)
  rw [hx, hi]
  exact flushed_entry V c t ⟨(j 0).val, hj0⟩ ⟨(j 1).val, hj1⟩ ⟨win0_1.index t (0 : Fin 2) * 512 + (j 0).val, by omega⟩ rfl

/-- An index of the array is in point `t`'s block iff each coordinate is in the block's range on its axis. -/
theorem mem_block (t : Fin cfg0.N) (i : S8192x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0).slice (win0_1.rect t)).set ↔ _
  rw [View.set_slice_whole, Rect.mem_set_unit]
  exact Iff.rfl

/-- The 16 blocks of 512 rows fill the 8192 rows: row `p` lies in block `p / 512`, and every point writes its block back. -/
theorem covered (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ := row_blocks_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- THE ARRAY after the region's run: the specification's quantized activation of the activation array. -/
theorem quantize_array (c : Dev nD) :
    (dat0 (F := Ideal) V c).arrAt 1 cfg0.N = Cert.QuantLinear.actQ (V c main_arg0) :=
  (dat0 (F := Ideal) V c).arrAt_eq_of_cover 1 (actQ (V c main_arg0)) (fun t _ => flushed_eq V c t) covered

end Cert.KernelIdeal.QuantizeValue

end
-- ==== Proof.DequantPayload.lean ====
/-
  One block of the weight, dequantized, read at an entry.

  The block is 512 rows of the weight by all 4096 columns, with the 512 x 16 blocks of the group scales and group
  zeros of the same rows. The program converts the integers, views each row of 4096 as 16 groups of 256, subtracts
  from every member of a group that group's zero and multiplies by that group's scale (the [512, 16] arrays seen as
  [512, 16, 1] and repeated 256 times along the last axis), and views the result as rows of 4096 again. Column `q` of a
  row is member `q % 256` of group `q / 256`, because (r, q) and (r, q / 256, q % 256) have the same row-major
  position `r * 4096 + q = (r * 16 + q / 256) * 256 + q % 256`; so entry (r, q) of the result depends on entry (r, q)
  of the weight block and on entry (r, q / 256) of the zeros and of the scales, and is
  `(w - zero) * scale` of those three.
-/
import proofs.«150079_j3212635537641_1_alg».proof.Proof.QuantLinearSpec
import proofs.«150079_j3212635537641_1_alg».proof.Proof.Gen.KernelIdeal.Skeleton
import Idealize.ShloMosaic.Lib.Pipeline.Value
import Idealize.ShloMosaic.Lib.ValueIdx

set_option maxRecDepth 16384

noncomputable section

namespace Cert.KernelIdeal.DequantValue

open Idealize.ShloMosaic Idealize.ShloMosaic.TcCoe Idealize.ShloMosaic.ValueIdx Idealize.SL.Sem Cert.KernelIdeal Cert.KernelIdeal.Gen
open Cert.QuantLinear (grp)

variable {α : Type}

/-- The member of its group that column `q` is: `q % 256`. -/
abbrev lane (q : Fin 4096) : Fin 256 := ⟨q.val % 256, Nat.mod_lt _ (by decide)⟩

/-- Rows of 4096 viewed as 16 groups of 256: member `q % 256` of group `q / 256` of row `r` is column `q` of row `r`. -/
theorem groups_apply (x : S512x4096.Idx → α) (r : Fin 512) (q : Fin 4096) :
    shapeCast S512x16x256 x shapeCasts_S512x4096_S512x16x256 (ix3 r (grp q) (lane q)) = x (ix2 r q) :=
  shapeCast_apply x shapeCasts_S512x4096_S512x16x256 (ix3 r (grp q) (lane q)) (ix2 r q) (by
    rw [Shape.rowMajor_val_two, Shape.rowMajor_val_three]
    show r.val * 4096 + q.val = (r.val * 16 + q.val / 256) * 256 + q.val % 256
    omega)

/-- 16 groups of 256 viewed as rows of 4096 again: column `q` of row `r` is member `q % 256` of group `q / 256`. -/
theorem columns_apply (x : S512x16x256.Idx → α) (r : Fin 512) (q : Fin 4096) :
    shapeCast S512x4096 x shapeCasts_S512x16x256_S512x4096 (ix2 r q) = x (ix3 r (grp q) (lane q)) :=
  shapeCast_apply x shapeCasts_S512x16x256_S512x4096 (ix2 r q) (ix3 r (grp q) (lane q)) (by
    rw [Shape.rowMajor_val_three, Shape.rowMajor_val_two]
    show (r.val * 16 + q.val / 256) * 256 + q.val % 256 = r.val * 4096 + q.val
    omega)

/-- A per-group value seen with a last axis of extent one: entry (r, g, 0) is entry (r, g). -/
theorem unit_axis_apply (x : S512x16.Idx → α) (r : Fin 512) (g : Fin 16) (z : Fin 1) :
    shapeCast S512x16x1 x shapeCasts_S512x16_S512x16x1 (ix3 r g z) = x (ix2 r g) :=
  shapeCast_apply x shapeCasts_S512x16_S512x16x1 (ix3 r g z) (ix2 r g) (by
    have hz : z.val = 0 := by have := z.isLt; omega
    rw [Shape.rowMajor_val_two, Shape.rowMajor_val_three]
    show r.val * 16 + g.val = (r.val * 16 + g.val) * 1 + z.val
    omega)

/-- A per-group value repeated over the 256 members of the group: entry (r, g, l) is entry (r, g, 0). -/
theorem repeat_apply (x : S512x16x1.Idx → α) (r : Fin 512) (g : Fin 16) (l : Fin 256) :
    broadcastTo S512x16x256 x broadcasts_S512x16x1_S512x16x256 (ix3 r g l) = x (ix3 r g (0 : Fin 1)) :=
  broadcastTo_apply x broadcasts_S512x16x1_S512x16x256 (ix3 r g l) (ix3 r g (0 : Fin 1)) fun a =>
    match a with
    | ⟨0, _⟩ => by show r.val = if (512 : Nat) = 1 then 0 else r.val; rw [if_neg (by decide)]
    | ⟨1, _⟩ => by show g.val = if (16 : Nat) = 1 then 0 else g.val; rw [if_neg (by decide)]
    | ⟨2, _⟩ => by show 0 = if (1 : Nat) = 1 then 0 else l.val; rw [if_pos rfl]

/-- THE BLOCK AT AN ENTRY: entry (r, q) of the dequantized block is the weight's integer at (r, q), converted, less the
    zero of row `r`'s group `q / 256`, times that group's scale. -/
theorem payload_apply (v0 : Vec Ideal S512x4096 .i32) (v3 v4 : Vec Ideal S512x16 .f32) (r : Fin 512) (q : Fin 4096) :
    k1_pay1 (F := Ideal) v0 v3 v4 (ix2 r q)
      = (FloatOps.sitofp (F := Ideal) .f32 (v0 (ix2 r q)) - v4 (ix2 r (grp q))) * v3 (ix2 r (grp q)) := by
  -- the block as one term: the conversion to the narrower format is the identity on extended reals
  have hterm : k1_pay1 (F := Ideal) v0 v3 v4 (ix2 r q)
      = shapeCast S512x4096
          (mulf
            (subf (shapeCast S512x16x256 (sitofp (F := Ideal) .f32 v0) shapeCasts_S512x4096_S512x16x256)
              (broadcastTo S512x16x256 (shapeCast S512x16x1 v4 shapeCasts_S512x16_S512x16x1) broadcasts_S512x16x1_S512x16x256))
            (broadcastTo S512x16x256 (shapeCast S512x16x1 v3 shapeCasts_S512x16_S512x16x1) broadcasts_S512x16x1_S512x16x256))
          shapeCasts_S512x16x256_S512x4096 (ix2 r q) := rfl
  refine hterm.trans ((columns_apply _ r q).trans ?_)
  -- the difference and the product are entry by entry; each operand is read where the views and the repetition send it
  exact congrArg₂ (· * ·)
    (congrArg₂ (· - ·) (groups_apply (sitofp (F := Ideal) .f32 v0) r q)
      ((repeat_apply _ r (grp q) (lane q)).trans (unit_axis_apply v4 r (grp q) 0)))
    ((repeat_apply _ r (grp q) (lane q)).trans (unit_axis_apply v3 r (grp q) 0))

end Cert.KernelIdeal.DequantValue

end
-- ==== Proof.DequantArray.lean ====
/-
  The dequantized weight as a whole array.

  The dequantization runs over a grid of 8 points. Point `t` takes rows `512 * b` to `512 * b + 511` of the weight (all 4096
  columns) and the same rows of the group scales and group zeros (all 16 groups), `b` the point's block index, and
  writes back the same rows of the result. By the block read at an entry, row `r`, column `q` of what a point writes is
  `(w - zero) * scale` at row `512 * b + r`: the weight at column `q`, the zero and the scale at group `q / 256` — that
  is, the point writes back its own rows of the specification's dequantized weight. The 8 blocks of 512 rows fill
  the 4096 rows (row `n` lies in block `n / 512`), so after the run the whole array is the dequantized weight.
-/
import proofs.«150079_j3212635537641_1_alg».proof.Proof.DequantPayload
import proofs.«150079_j3212635537641_1_alg».proof.Proof.Gen.KernelIdeal.Frame
import Idealize.ShloMosaic.Lib.Pipeline.Value
import Idealize.ShloMosaic.Lib.ValueIdx

set_option maxRecDepth 16384

noncomputable section

namespace Cert.KernelIdeal.DequantValue

open Idealize.ShloMosaic Idealize.ShloMosaic.TcCoe Idealize.ShloMosaic.ValueIdx Idealize.SL.Sem Cert.KernelIdeal Cert.KernelIdeal.Gen
open Idealize.ShloMosaic.Pipeline (Dat)
open Cert.QuantLinear (grp wDq)

variable (V : (c : Dev nD) → (b : Ref sig .tc) → Buf (Elt Ideal) ((c : Thread nD τ).loc b))

/-- The body loads and stores whole staging buffers: its rectangles start at the origin. -/
theorem origin : (![0, 0] : Fin 2 → Nat) = fun _ => 0 := funext fun a => by fin_cases a <;> rfl

/-- What the body leaves in the result's staging buffer, at entry (r, q), from the three blocks it loaded: the weight
    block's integer at (r, q), converted, less the zero block's entry (r, q / 256), times the scale block's. -/
theorem block_apply (x0 : Vec Ideal S512x4096 .i32) (x1 x2 : Vec Ideal S512x16 .f32) (r : Fin 512) (q : Fin 4096) :
    out1_3 (F := Ideal) x0 x1 x2 (ix2 r q)
      = (FloatOps.sitofp (F := Ideal) .f32 (x0 (ix2 r q)) - x2 (ix2 r (grp q))) * x1 (ix2 r (grp q)) := by
  unfold out1_3
  rw [View.canon_unit_zero origin]
  simp only [View.ld_unit_zero (S := S512x4096) origin, View.ld_unit_zero (S := S512x16) origin]
  exact payload_apply x0 x1 x2 r q

/-- The block indices, over the 8 points: the three inputs' blocks are at the result's block of rows, every block
    spans its array's whole second axis, and the blocks of rows are numbered 0 to 7. -/
theorem block_index : ∀ t : Fin cfg1.N,
      win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = win1_3.index t (0 : Fin 2) ∧ win1_2.index t (1 : Fin 2) = 0
    ∧ win1_3.index t (0 : Fin 2) ≤ 7 ∧ win1_3.index t (1 : Fin 2) = 0 :=
  (by decide +kernel : ∀ t : Fin grid1.N, _)

/-- Every block of rows is some point's. -/
theorem block_onto : ∀ b : Fin 8, ∃ t : Fin cfg1.N, win1_3.index t = ![b.val, 0] :=
  (by decide +kernel : ∀ b : Fin 8, ∃ t : Fin grid1.N, win1_3.index t = ![b.val, 0])

/-- The weight's block at point `t`, entry (r, q), is the weight at row `512 * b + r`, column `q`. -/
theorem weight_block (c : Dev nD) (t : Fin cfg1.N) (r : Fin 512) (q : Fin 4096) (k : S4096x4096.Idx)
    (hk0 : (k 0).val = win1_3.index t (0 : Fin 2) * 512 + r.val) (hk1 : (k 1).val = q.val) :
    (iblk1 V c 0 t : Vec Ideal S512x4096 .i32) (ix2 r q) = (V c main_arg1 : S4096x4096.Idx → BitVec 32) k := by
  obtain ⟨e0, e1, -, -, -, -, -, -⟩ := block_index t
  unfold iblk1
  rw [View.read_apply]
  show (V c main_arg1 : S4096x4096.Idx → BitVec 32) (((cfg1.win 0).blk t).view.emb (ix2 r q))
      = (V c main_arg1 : S4096x4096.Idx → BitVec 32) k
  refine congrArg (V c main_arg1 : S4096x4096.Idx → BitVec 32) (funext fun a => Fin.ext ?_)
  match a with
  | ⟨0, _⟩ => show win1_0.index t (0 : Fin 2) * 512 + 1 * r.val = (k 0).val; omega
  | ⟨1, _⟩ => show win1_0.index t (1 : Fin 2) * 4096 + 1 * q.val = (k 1).val; omega

/-- The scales' block at point `t`, entry (r, g), is the scales at row `512 * b + r`, group `g`. -/
theorem scale_block (c : Dev nD) (t : Fin cfg1.N) (r : Fin 512) (g : Fin 16) (k : S4096x16.Idx)
    (hk0 : (k 0).val = win1_3.index t (0 : Fin 2) * 512 + r.val) (hk1 : (k 1).val = g.val) :
    (iblk1 V c 1 t : Vec Ideal S512x16 .f32) (ix2 r g) = (V c main_arg2 : S4096x16.Idx → EReal) k := by
  obtain ⟨-, -, e0, e1, -, -, -, -⟩ := block_index t
  unfold iblk1
  rw [View.read_apply]
  show (V c main_arg2 : S4096x16.Idx → EReal) (((cfg1.win 1).blk t).view.emb (ix2 r g))
      = (V c main_arg2 : S4096x16.Idx → EReal) k
  refine congrArg (V c main_arg2 : S4096x16.Idx → EReal) (funext fun a => Fin.ext ?_)
  match a with
  | ⟨0, _⟩ => show win1_1.index t (0 : Fin 2) * 512 + 1 * r.val = (k 0).val; omega
  | ⟨1, _⟩ => show win1_1.index t (1 : Fin 2) * 16 + 1 * g.val = (k 1).val; omega

/-- The zeros' block at point `t`, entry (r, g), is the zeros at row `512 * b + r`, group `g`. -/
theorem zero_block (c : Dev nD) (t : Fin cfg1.N) (r : Fin 512) (g : Fin 16) (k : S4096x16.Idx)
    (hk0 : (k 0).val = win1_3.index t (0 : Fin 2) * 512 + r.val) (hk1 : (k 1).val = g.val) :
    (iblk1 V c 2 t : Vec Ideal S512x16 .f32) (ix2 r g) = (V c main_arg3 : S4096x16.Idx → EReal) k := by
  obtain ⟨-, -, -, -, e0, e1, -, -⟩ := block_index t
  unfold iblk1
  rw [View.read_apply]
  show (V c main_arg3 : S4096x16.Idx → EReal) (((cfg1.win 2).blk t).view.emb (ix2 r g))
      = (V c main_arg3 : S4096x16.Idx → EReal) k
  refine congrArg (V c main_arg3 : S4096x16.Idx → EReal) (funext fun a => Fin.ext ?_)
  match a with
  | ⟨0, _⟩ => show win1_2.index t (0 : Fin 2) * 512 + 1 * r.val = (k 0).val; omega
  | ⟨1, _⟩ => show win1_2.index t (1 : Fin 2) * 16 + 1 * g.val = (k 1).val; omega

/-- The specification's dequantized weight at an index whose row is `n` and whose column lies in group `g`. -/
theorem wDq_apply (w : S4096x4096.Idx → BitVec 32) (s z : S4096x16.Idx → EReal) (i : S4096x4096.Idx) (n : Fin 4096) (g : Fin 16)
    (hn : (i 0).val = n.val) (hg : (i 1).val / 256 = g.val) :
    wDq w s z i = (FloatOps.sitofp (F := Ideal) .f32 (w i) - z (ix2 n g)) * s (ix2 n g) := by
  have e : (ix2 (i 0) (grp (i 1)) : S4096x16.Idx) = ix2 n g :=
    funext fun a => match a with
      | ⟨0, _⟩ => Fin.ext hn
      | ⟨1, _⟩ => Fin.ext hg
  show (FloatOps.sitofp (F := Ideal) .f32 (w i) - z (ix2 (i 0) (grp (i 1)))) * s (ix2 (i 0) (grp (i 1))) = _
  rw [e]

/-- Entry (r, q) of what the body leaves at point `t` is the dequantized weight at row `512 * b + r`, column `q`. -/
theorem flushed_entry (c : Dev nD) (t : Fin cfg1.N) (r : Fin 512) (q : Fin 4096) (i : S4096x4096.Idx)
    (hi0 : (i 0).val = win1_3.index t (0 : Fin 2) * 512 + r.val) (hi1 : (i 1).val = q.val) :
    out1_3 (F := Ideal) (iblk1 V c 0 t) (iblk1 V c 1 t) (iblk1 V c 2 t) (ix2 r q)
      = wDq (V c main_arg1) (V c main_arg2) (V c main_arg3) i := by
  obtain ⟨-, -, -, -, -, -, b0, -⟩ := block_index t
  have hn : win1_3.index t (0 : Fin 2) * 512 + r.val < 4096 := by have := r.isLt; omega
  refine (block_apply (iblk1 V c 0 t) (iblk1 V c 1 t) (iblk1 V c 2 t) r q).trans ?_
  rw [weight_block V c t r q i hi0 hi1,
    zero_block V c t r (grp q) (ix2 ⟨win1_3.index t (0 : Fin 2) * 512 + r.val, hn⟩ (grp q)) rfl rfl,
    scale_block V c t r (grp q) (ix2 ⟨win1_3.index t (0 : Fin 2) * 512 + r.val, hn⟩ (grp q)) rfl rfl]
  exact (wDq_apply _ _ _ i ⟨win1_3.index t (0 : Fin 2) * 512 + r.val, hn⟩ (grp q) hi0 (by rw [hi1]; rfl)).symm

/-- WHAT POINT `t` WRITES BACK is its block of rows of the dequantized weight of the arrays as the region finds them. -/
theorem flushed_eq (c : Dev nD) (t : Fin cfg1.N) :
    (dat1 (F := Ideal) V c).flushed 3 t
      = ((cfg1.win 3).blk t).view.read (Elt Ideal) (wDq (V c main_arg1) (V c main_arg2) (V c main_arg3)) := by
  show (cfg1.win 3).cut (grid1.coords t) ((dat1 (F := Ideal) V c).after 3 t) = _
  rw [after1_3]
  obtain ⟨-, -, -, -, -, -, -, b1⟩ := block_index t
  funext j
  have hj0 : (j 0).val < 512 := (j 0).isLt
  have hj1 : (j 1).val < 4096 := (j 1).isLt
  have hx : (cfg1.win 3).xinj (grid1.coords t) j = ix2 (⟨(j 0).val, hj0⟩ : Fin 512) (⟨(j 1).val, hj1⟩ : Fin 4096) :=
    funext fun a => match a with
      | ⟨0, _⟩ => rfl
      | ⟨1, _⟩ => rfl
  show out1_3 (F := Ideal) (iblk1 V c 0 t) (iblk1 V c 1 t) (iblk1 V c 2 t) ((cfg1.win 3).xinj (grid1.coords t) j)
      = wDq (V c main_arg1) (V c main_arg2) (V c main_arg3) (((cfg1.win 3).blk t).view.emb j)
  rw [hx]
  exact flushed_entry V c t ⟨(j 0).val, hj0⟩ ⟨(j 1).val, hj1⟩ (((cfg1.win 3).blk t).view.emb j)
    (by show win1_3.index t (0 : Fin 2) * 512 + 1 * (j 0).val = win1_3.index t (0 : Fin 2) * 512 + (j 0).val; omega)
    (by show win1_3.index t (1 : Fin 2) * 4096 + 1 * (j 1).val = (j 1).val; omega)

/-- An index of the array is in point `t`'s block iff each coordinate is in the block's range on its axis. -/
theorem mem_block (t : Fin cfg1.N) (i : S4096x4096.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v1).slice (win1_3.rect t)).set ↔ _
  rw [View.set_slice_whole, Rect.mem_set_unit]
  exact Iff.rfl

/-- Every index of the array is in the block of the point whose block of rows holds its row. -/
theorem covered (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := block_onto ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 4096 ≤ (i 1).val ∧ (i 1).val < win1_3.index t (1 : Fin 2) * 4096 + 4096; omega

/-- THE ARRAY after the region's run: the specification's dequantized weight of the weight, scales and zeros arrays. -/
theorem dequant_array (c : Dev nD) :
    (dat1 (F := Ideal) V c).arrAt 3 cfg1.N = Cert.QuantLinear.wDq (V c main_arg1) (V c main_arg2) (V c main_arg3) :=
  (dat1 (F := Ideal) V c).arrAt_eq_of_cover 3 (wDq (V c main_arg1) (V c main_arg2) (V c main_arg3))
    (fun t _ => flushed_eq V c t) covered

end Cert.KernelIdeal.DequantValue

end
-- ==== Proof.LibRowDot.lean ====
/-
  A matrix product whose right factor is contracted along its SECOND axis: `x · wᵀ` without a separate transposition.

  A matrix unit fed an `R × K` left factor and an `N × K` right factor, with dimension numbers that contract the
  second axis of both (`[1] × [1]`, nothing batched), accumulated into the zero matrix and read at exact arithmetic, is
  at the entry `(p, n)` the sum over the contracted coordinate `a : Fin K` of `l (p, a) * r (n, a)`; accumulated into any
  matrix `acc` it is `acc (p, n)` plus that sum. The four hypotheses say the dimension numbers are the ones described:
  each factor's index takes its row from the output index (the left factor from the output's row, the right factor
  from the output's column) and its column from the contraction index. Any extents, any float formats of the factors.
-/
import Idealize.ShloMosaic.PureOps.Ideal.Laws
import Idealize.ShloMosaic.Lib.ValueIdx

noncomputable section

open scoped BigOperators

namespace Cert.LibRowDot

open Idealize.ShloMosaic Idealize.ShloMosaic.ValueIdx

/-- `x · wᵀ` accumulated into `acc`, read at `(p, n)` in exact arithmetic: `acc (p, n) + ∑ a, l (p, a) * r (n, a)`. -/
theorem matmul_rows {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (acc : FVec Ideal ⟨2, ![R, N]⟩ .f32) (p : Fin R) (n : Fin N) :
    FloatOps.matmul D prec l r acc (ix2 p n) = acc (ix2 p n) + ∑ a : Fin K, l (ix2 p a) * r (ix2 n a) := by
  rw [Ideal.matmul_apply, ← Equiv.sum_comp (contrEquiv1 D K hr hs).symm]
  refine congrArg (acc (ix2 p n) + ·) (Finset.sum_congr rfl fun k _ => ?_)
  have hk := contrEquiv1_symm_val D K hr hs k
  have el : D.lhsIdx (ix2 p n) ((contrEquiv1 D K hr hs).symm k) = ix2 p k := funext fun a => Fin.ext (by
    match a with
    | ⟨0, _⟩ => exact hl0 _ _
    | ⟨1, _⟩ => exact (hl1 _ _).trans hk)
  have er : D.rhsIdx (ix2 p n) ((contrEquiv1 D K hr hs).symm k) = ix2 n k := funext fun a => Fin.ext (by
    match a with
    | ⟨0, _⟩ => exact hr0 _ _
    | ⟨1, _⟩ => exact (hr1 _ _).trans hk)
  rw [el, er]

/-- The same accumulated into the zero matrix: the sum alone. -/
theorem matmul_rows_zero {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (p : Fin R) (n : Fin N) :
    FloatOps.matmul D prec l r (constant ⟨2, ![R, N]⟩ .f32 0x00000000#32) (ix2 p n)
      = ∑ a : Fin K, l (ix2 p a) * r (ix2 n a) := by
  rw [matmul_rows D hr hs hl0 hl1 hr0 hr1 prec l r _ p n]
  show Ideal.ofBits .f32 0x00000000#32 + _ = _
  rw [Ideal.ofBits_zero_f32, zero_add]

end Cert.LibRowDot

end
-- ==== Proof.MatmulPayload.lean ====
/-
  The matrix-product body at one entry.

  The third region's body multiplies a block of 1024 rows of its first factor by a block of 512 rows of its second,
  both 4096 columns wide, contracting the COLUMN axis of both factors and adding into the zero matrix. In exact
  arithmetic its entry (p, n) is therefore the sum over the 4096 columns `a` of the first block's entry (p, a) times
  the second block's entry (n, a): row p of the one dotted with row n of the other, `x · wᵀ`. The two shape casts the
  body applies to its factors go from a shape to itself and change nothing.
-/
import proofs.«150079_j3212635537641_1_alg».proof.Proof.Gen.KernelIdeal.Skeleton
import proofs.«150079_j3212635537641_1_alg».proof.Proof.LibRowDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatmulValue

open Idealize.ShloMosaic Idealize.ShloMosaic.TcCoe Idealize.ShloMosaic.ValueIdx Idealize.SL.Sem Cert.KernelIdeal Cert.KernelIdeal.Gen

/-- The body's dimension numbers: contract axis 1 of both factors, nothing batched. -/
abbrev rowDot : DotDims S1024x4096 S512x4096 S1024x512 := dot_S1024x4096_S512x4096_S1024x512_1_1_0_0_n_n

/-- The first factor is read at the output entry's row … -/
theorem lhs_row (i : S1024x512.Idx) (q : rowDot.contr.Idx) : (rowDot.lhsIdx i q 0).val = (i 0).val := by
  unfold DotDims.lhsIdx
  rw [dif_neg (show ¬(0 : Fin S1024x4096.rank) ∈ rowDot.lhsBatch by decide),
    dif_pos (show (0 : Fin S1024x4096.rank) ∈ rowDot.lhsNonContracting by decide)]
  rfl

/-- … and at the contracted coordinate as its column. -/
theorem lhs_col (i : S1024x512.Idx) (q : rowDot.contr.Idx) : (rowDot.lhsIdx i q 1).val = (q ⟨0, by decide⟩).val :=
  rowDot.lhsIdx_val_of_single rfl i q

/-- The second factor is read at the output entry's COLUMN as its row … -/
theorem rhs_row (i : S1024x512.Idx) (q : rowDot.contr.Idx) : (rowDot.rhsIdx i q 0).val = (i 1).val := by
  unfold DotDims.rhsIdx
  rw [dif_neg (show ¬(0 : Fin S512x4096.rank) ∈ rowDot.rhsBatch by decide),
    dif_pos (show (0 : Fin S512x4096.rank) ∈ rowDot.rhsNonContracting by decide)]
  rfl

/-- … and at the contracted coordinate as its column. -/
theorem rhs_col (i : S1024x512.Idx) (q : rowDot.contr.Idx) : (rowDot.rhsIdx i q 1).val = (q ⟨0, by decide⟩).val :=
  rowDot.rhsIdx_val_of_single rfl i q

/-- The body's stored value at the entry (p, n): row p of the first block dotted with row n of the second. -/
theorem pay_apply (v0 : FVec Ideal S1024x4096 .bf16) (v2 : FVec Ideal S512x4096 .bf16) (p : Fin 1024) (n : Fin 512) :
    k2_pay1 (F := Ideal) v0 v2 (ix2 p n) = ∑ a : Fin 4096, v0 (ix2 p a) * v2 (ix2 n a) := by
  unfold k2_pay1
  show FloatOps.matmul rowDot none (shapeCast S1024x4096 v0 shapeCasts_S1024x4096_S1024x4096)
      (shapeCast S512x4096 v2 shapeCasts_S512x4096_S512x4096) (constant S1024x512 .f32 0x00000000#32) (ix2 p n) = _
  rw [shapeCast_self v0, shapeCast_self v2]
  exact Cert.LibRowDot.matmul_rows_zero (R := 1024) (K := 4096) (N := 512) rowDot rfl rfl
    lhs_row lhs_col rhs_row rhs_col none v0 v2 p n

end Cert.KernelIdeal.MatmulValue

end
-- ==== Proof.MatmulArray.lean ====
/-
  The third region's output array is the layer's product of the two arrays the region reads.

  The region walks an 8 × 8 grid. At the point with coordinates (i, j) it holds rows 1024·i … 1024·i + 1023 of the
  first array (all 4096 columns), rows 512·j … 512·j + 511 of the second (all 4096 columns), and writes back the
  1024 × 512 block of the output whose corner is (1024·i, 512·j). The body leaves in that block, at (p, n), row p of
  the first block dotted with row n of the second; that is row 1024·i + p of the first array dotted with row
  512·j + n of the second, which is the product `linear` at the array entry (1024·i + p, 512·j + n) the block's
  entry (p, n) is written to. The 64 blocks tile the 8192 × 4096 output — the entry (r, q) lies in the block of the
  point with coordinates (r / 1024, q / 512) — and every point writes its block back, so after the region the whole
  array is `linear` of the two arrays as the region found them.
-/
import proofs.«150079_j3212635537641_1_alg».proof.Proof.QuantLinearSpec
import proofs.«150079_j3212635537641_1_alg».proof.Proof.MatmulPayload
import proofs.«150079_j3212635537641_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatmulValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The body's loads and its store start at the corner of their blocks. -/
theorem zero_corner : (![0, 0] : Fin 2 → Nat) = fun _ => 0 := funext fun a => by fin_cases a <;> rfl

/-- The three block indices at a grid point, compared over the 64 points: the first factor's block row is the
    output's block row, the second factor's block row is the output's block COLUMN, neither factor is cut along its
    columns, and the output's block indices stay below 8. -/
theorem block_indices : ∀ t : Fin cfg2.N,
    win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 7
    ∧ win2_2.index t (1 : Fin 2) ≤ 7 :=
  (by decide +kernel : ∀ t : Fin grid2.N, _)

/-- Every pair of block indices below 8 is some grid point's output block. -/
theorem block_onto : ∀ (q0 : Fin 8) (q1 : Fin 8), ∃ t : Fin cfg2.N, win2_2.index t = ![q0.val, q1.val] :=
  (by decide +kernel : ∀ (q0 : Fin 8) (q1 : Fin 8), ∃ t : Fin grid2.N, win2_2.index t = ![q0.val, q1.val])

/-- Row p of a 1024-row block dotted with row n of a 512-row block is the product's entry (r, q), once the block rows
    are rows r and q of the two arrays. -/
theorem entry_eq (x0 : FVec Ideal S1024x4096 .bf16) (x1 : FVec Ideal S512x4096 .bf16)
    (A : (⟨2, ![8192, 4096]⟩ : Shape).Idx → EReal) (B : (⟨2, ![4096, 4096]⟩ : Shape).Idx → EReal)
    (p : Fin 1024) (n : Fin 512) (r : Fin 8192) (q : Fin 4096)
    (h0 : ∀ a : Fin 4096, x0 (ix2 p a) = A (ix2 r a))
    (h1 : ∀ a : Fin 4096, x1 (ix2 n a) = B (ix2 q a)) :
    k2_pay1 (F := Ideal) x0 x1 (ix2 p n) = Cert.QuantLinear.linear A B (ix2 r q) := by
  rw [pay_apply]
  show _ = ∑ k : Fin 4096, A (ix2 r k) * B (ix2 q k)
  exact Finset.sum_congr rfl fun a _ => by rw [h0 a, h1 a]

/-- The first factor's block at a point: its entry (p, a) is the first array's entry (r, a), r the output block's
    first row plus p. -/
theorem left_block_apply (c : Dev nD) (t : Fin cfg2.N) (p : Fin 1024) (a : Fin 4096) (r : Fin 8192)
    (hr : r.val = win2_2.index t (0 : Fin 2) * 1024 + p.val) :
    (iblk2 V c 0 t : FVec Ideal S1024x4096 .bf16) (ix2 p a) = (V c main_v0 : S8192x4096.Idx → EReal) (ix2 r a) := by
  obtain ⟨e0, e1, e2, e3, e4, e5⟩ := block_indices t
  unfold iblk2
  rw [View.read_apply]
  show V c main_v0 _ = V c main_v0 _
  refine congrArg (V c main_v0) ?_
  funext ax
  apply Fin.ext
  match ax with
  | ⟨0, _⟩ => show win2_0.index t (0 : Fin 2) * 1024 + 1 * p.val = r.val; omega
  | ⟨1, _⟩ => show win2_0.index t (1 : Fin 2) * 4096 + 1 * a.val = a.val; omega

/-- The second factor's block at a point: its entry (n, a) is the second array's entry (q, a), q the output block's
    first column plus n. -/
theorem right_block_apply (c : Dev nD) (t : Fin cfg2.N) (n : Fin 512) (a : Fin 4096) (q : Fin 4096)
    (hq : q.val = win2_2.index t (1 : Fin 2) * 512 + n.val) :
    (iblk2 V c 1 t : FVec Ideal S512x4096 .bf16) (ix2 n a) = (V c main_v1 : S4096x4096.Idx → EReal) (ix2 q a) := by
  obtain ⟨e0, e1, e2, e3, e4, e5⟩ := block_indices t
  unfold iblk2
  rw [View.read_apply]
  show V c main_v1 _ = V c main_v1 _
  refine congrArg (V c main_v1) ?_
  funext ax
  apply Fin.ext
  match ax with
  | ⟨0, _⟩ => show win2_1.index t (0 : Fin 2) * 512 + 1 * n.val = q.val; omega
  | ⟨1, _⟩ => show win2_1.index t (1 : Fin 2) * 4096 + 1 * a.val = a.val; omega

/-- What a point writes back is its block of the product of the two arrays. -/
theorem flushed_eq (c : Dev nD) (t : Fin cfg2.N) :
    (dat2 (F := Ideal) V c).flushed 2 t
      = ((cfg2.win 2).blk t).view.read (Elt Ideal) (Cert.QuantLinear.linear (V c main_v0) (V c main_v1)) := by
  show (cfg2.win 2).cut (grid2.coords t) ((dat2 (F := Ideal) V c).after 2 t) = _
  rw [after2_2]
  unfold out2_2
  rw [View.canon_unit_zero zero_corner]
  simp only [View.ld_unit_zero (S := S1024x4096) zero_corner, View.ld_unit_zero (S := S512x4096) zero_corner]
  obtain ⟨e0, e1, e2, e3, e4, e5⟩ := block_indices t
  funext j
  have hj0 : (j 0).val < 1024 := (j 0).isLt
  have hj1 : (j 1).val < 512 := (j 1).isLt
  -- the block entry's coordinates, and the array entry it is written to
  have hx : (cfg2.win 2).xinj (grid2.coords t) j = ix2 (⟨(j 0).val, hj0⟩ : Fin 1024) (⟨(j 1).val, hj1⟩ : Fin 512) :=
    funext fun ax => by
      match ax with
      | ⟨0, _⟩ => rfl
      | ⟨1, _⟩ => rfl
  have hi : ((cfg2.win 2).blk t).view.emb j
      = ix2 (⟨win2_2.index t (0 : Fin 2) * 1024 + (j 0).val, by omega⟩ : Fin 8192)
          (⟨win2_2.index t (1 : Fin 2) * 512 + (j 1).val, by omega⟩ : Fin 4096) := by
    funext ax
    apply Fin.ext
    match ax with
    | ⟨0, _⟩ => show win2_2.index t (0 : Fin 2) * 1024 + 1 * (j 0).val = win2_2.index t (0 : Fin 2) * 1024 + (j 0).val; omega
    | ⟨1, _⟩ => show win2_2.index t (1 : Fin 2) * 512 + 1 * (j 1).val = win2_2.index t (1 : Fin 2) * 512 + (j 1).val; omega
  show k2_pay1 (F := Ideal) (iblk2 V c 0 t) (iblk2 V c 1 t) ((cfg2.win 2).xinj (grid2.coords t) j)
    = Cert.QuantLinear.linear (V c main_v0) (V c main_v1) (((cfg2.win 2).blk t).view.emb j)
  refine (congrArg (k2_pay1 (F := Ideal) (iblk2 V c 0 t) (iblk2 V c 1 t)) hx).trans ?_
  refine Eq.trans ?_ (congrArg (Cert.QuantLinear.linear (V c main_v0) (V c main_v1)) hi.symm)
  exact entry_eq (iblk2 V c 0 t) (iblk2 V c 1 t) (V c main_v0) (V c main_v1)
    ⟨(j 0).val, hj0⟩ ⟨(j 1).val, hj1⟩
    ⟨win2_2.index t (0 : Fin 2) * 1024 + (j 0).val, by omega⟩ ⟨win2_2.index t (1 : Fin 2) * 512 + (j 1).val, by omega⟩
    (fun a => left_block_apply V c t ⟨(j 0).val, hj0⟩ a _ rfl)
    (fun a => right_block_apply V c t ⟨(j 1).val, hj1⟩ a _ rfl)

/-- An entry of the output array lies in a point's block exactly when each coordinate lies in the block's range. -/
theorem mem_block (t : Fin cfg2.N) (i : S8192x4096.Idx) :
    i ∈ ((cfg2.win 2).blk t).view.set ↔ ∀ a : Fin 2, win2_2.index t a * S1024x512.size a ≤ (i a).val
      ∧ (i a).val < win2_2.index t a * S1024x512.size a + S1024x512.size a := by
  show i ∈ ((View.whole main_v2).slice (win2_2.rect t)).set ↔ _
  rw [View.set_slice_whole, Rect.mem_set_unit]
  exact Iff.rfl

/-- The 64 blocks tile the output: the entry (r, q) lies in the block with indices (r / 1024, q / 512), and every point
    writes its block back. -/
theorem covered (i : S8192x4096.Idx) :
    ∃ t : Fin cfg2.N, (cfg2.win 2).flush t = true ∧ i ∈ ((cfg2.win 2).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win2_2.index t (0 : Fin 2) = (i 0).val / 1024 := congrFun ht 0
  have q1 : win2_2.index t (1 : Fin 2) = (i 1).val / 512 := congrFun ht 1
  refine ⟨t, flush2_2 t, ?_⟩
  rw [mem_block]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 512 ≤ (i 1).val ∧ (i 1).val < win2_2.index t (1 : Fin 2) * 512 + 512; omega

/-- After the region the output array is the product of the two arrays the region read. -/
theorem matmul_array (c : Dev nD) :
    (dat2 (F := Ideal) V c).arrAt 2 cfg2.N = Cert.QuantLinear.linear (V c main_v0) (V c main_v1) :=
  (dat2 (F := Ideal) V c).arrAt_eq_of_cover 2 (Cert.QuantLinear.linear (V c main_v0) (V c main_v1))
    (fun t _ => flushed_eq V c t) covered

end Cert.KernelIdeal.MatmulValue

end
-- ==== Proof.ReferenceActivation.lean ====
/-
  The reference's activation stage is the specification's quantized-and-dequantized activation.

  Row by row: the reference folds a row's minimum from +∞ and its maximum from -∞ over the 4096 columns, widens the
  range to hold zero, divides it by 255 and bounds the quotient below by ε (the step); from the step and the two
  widened extremes it chooses, clamps and rounds the zero point; and every entry of the row is divided by the step,
  rounded, shifted by the zero point, clamped, shifted back and multiplied by the step. The specification does the
  same operations in the same order on the same literals, so once each host operation is read at an index the two
  sides differ only in how a row's fold is written: the reference reduces the array over its second axis, the
  specification folds over the row's columns. The two folds meet because the indices of the array that drop to row
  p are exactly the pairs (p, k), k a column.
-/
import proofs.«150079_j3212635537641_1_alg».proof.Proof.QuantLinearSpec
import proofs.«150079_j3212635537641_1_alg».proof.Proof.Gen.ReferenceIdeal.Read
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem Cert.ReferenceIdeal
  Cert.ReferenceIdeal.Read
open Cert.QuantLinear

/-! ## The two row reductions -/

/-- Dropping the column axis of the activation's shape leaves the shape of its rows. -/
theorem rowReduces : S8192x4096.Reduces [1] S8192 := by decide

/-- Row p with column k put back is the entry (p, k). -/
theorem lift_row (h : S8192x4096.Reduces [1] S8192) (p : Fin 8192) (k : Fin (S8192x4096.size 1)) :
    h.lift (ix1 p) k = ix2 p (⟨k.val, k.isLt⟩ : Fin 4096) := by
  funext c; apply Fin.ext
  fin_cases c <;> rfl

/-- The reference's minimum-reduce at row p is the fold of min from +∞ over the row's entries. -/
theorem ref_rowMin (x : (⟨S8192x4096, .f32⟩ : BufTy).Contents (Elt Ideal)) (p : Fin 8192) :
    val_main_v0 (F := Ideal) x (ix1 p) = rowMin fun k => x (ix2 p k) := by
  unfold val_main_v0
  refine Eq.trans (Host.reduce_eq_fold_single (α := Ideal .f32) (s := S8192x4096) (t := S8192) (a := (1 : Fin 2))
    FloatOps.minimumf x (val_main_cst (F := Ideal)) Gen.reducesTo_S8192x4096_S8192_d1 rowReduces Gen.h_S_ (ix1 p)) ?_
  have hf : (x ∘ rowReduces.lift (ix1 p)) = fun k : Fin 4096 => x (ix2 p k) :=
    funext fun k => congrArg x (lift_row rowReduces p k)
  exact congrArg (fun f => Finset.fold min (Ideal.ofBits .f32 0x7F800000#32) f (Finset.univ : Finset (Fin 4096))) hf

/-- The reference's maximum-reduce at row p is the fold of max from -∞ over the row's entries. -/
theorem ref_rowMax (x : (⟨S8192x4096, .f32⟩ : BufTy).Contents (Elt Ideal)) (p : Fin 8192) :
    val_main_v4 (F := Ideal) x (ix1 p) = rowMax fun k => x (ix2 p k) := by
  unfold val_main_v4
  refine Eq.trans (Host.reduce_eq_fold_single (α := Ideal .f32) (s := S8192x4096) (t := S8192) (a := (1 : Fin 2))
    FloatOps.maximumf x (val_main_cst_1 (F := Ideal)) Gen.reducesTo_S8192x4096_S8192_d1 rowReduces Gen.h_S_ (ix1 p)) ?_
  have hf : (x ∘ rowReduces.lift (ix1 p)) = fun k : Fin 4096 => x (ix2 p k) :=
    funext fun k => congrArg x (lift_row rowReduces p k)
  exact congrArg (fun f => Finset.fold max (Ideal.ofBits .f32 0xFF800000#32) f (Finset.univ : Finset (Fin 4096))) hf

/-! ## The keepdims column (p, 0) and its broadcast along the row -/

/-- The column entry (p, 0) reads the row minimum at p. -/
theorem idx_v1_col (p : Fin 8192) : idx_main_v1 (ix2 p (0 : Fin 1)) = ix1 p := by
  funext a; match a with | ⟨0, _⟩ => rfl

/-- The column entry (p, 0) reads the row maximum at p. -/
theorem idx_v5_col (p : Fin 8192) : idx_main_v5 (ix2 p (0 : Fin 1)) = ix1 p := by
  funext a; match a with | ⟨0, _⟩ => rfl

/-- Each of the four broadcasts along a row reads the entry (p, q) from the column entry (p, 0). -/
theorem idx_v29_row (p : Fin 8192) (q : Fin 4096) : idx_main_v29 (ix2 p q) = ix2 p (0 : Fin 1) := by
  funext a; match a with | ⟨0, _⟩ => rfl | ⟨1, _⟩ => rfl
theorem idx_v32_row (p : Fin 8192) (q : Fin 4096) : idx_main_v32 (ix2 p q) = ix2 p (0 : Fin 1) := by
  funext a; match a with | ⟨0, _⟩ => rfl | ⟨1, _⟩ => rfl
theorem idx_v35_row (p : Fin 8192) (q : Fin 4096) : idx_main_v35 (ix2 p q) = ix2 p (0 : Fin 1) := by
  funext a; match a with | ⟨0, _⟩ => rfl | ⟨1, _⟩ => rfl
theorem idx_v37_row (p : Fin 8192) (q : Fin 4096) : idx_main_v37 (ix2 p q) = ix2 p (0 : Fin 1) := by
  funext a; match a with | ⟨0, _⟩ => rfl | ⟨1, _⟩ => rfl

/-! ## The row's statistics: widened extremes, step, zero point -/

/-- The lower end of row p's range, widened to hold zero. -/
theorem ref_lo (x : (⟨S8192x4096, .f32⟩ : BufTy).Contents (Elt Ideal)) (p : Fin 8192) :
    val_main_v3 (F := Ideal) x (ix2 p (0 : Fin 1))
      = min (rowMin fun k => x (ix2 p k)) (Ideal.ofBits .f32 0x00000000#32) := by
  rw [val_main_v3_apply, val_main_v1_apply, val_main_v2_apply, idx_v1_col, ref_rowMin]
  rfl

/-- The upper end of row p's range, widened to hold zero. -/
theorem ref_hi (x : (⟨S8192x4096, .f32⟩ : BufTy).Contents (Elt Ideal)) (p : Fin 8192) :
    val_main_v7 (F := Ideal) x (ix2 p (0 : Fin 1))
      = max (rowMax fun k => x (ix2 p k)) (Ideal.ofBits .f32 0x00000000#32) := by
  rw [val_main_v7_apply, val_main_v5_apply, val_main_v6_apply, idx_v5_col, ref_rowMax]
  rfl

/-- Row p's step: the widened range over 255, bounded below by ε. -/
theorem ref_step (x : (⟨S8192x4096, .f32⟩ : BufTy).Contents (Elt Ideal)) (p : Fin 8192) :
    val_main_v12 (F := Ideal) x (ix2 p (0 : Fin 1))
      = stepOf (rowMin fun k => x (ix2 p k)) (rowMax fun k => x (ix2 p k)) := by
  rw [val_main_v12_apply, val_main_v10_apply, val_main_v8_apply, val_main_v9_apply, val_main_v11_apply, ref_hi, ref_lo]
  rfl

/-- Row p's zero point: the end of the eight-bit range the sign of the summed errors selects, moved by the scaled
    extreme, clamped to the range and rounded. Both candidates and the selecting sum are built from the widened
    extremes and the step alone. -/
theorem ref_zero (x : (⟨S8192x4096, .f32⟩ : BufTy).Contents (Elt Ideal)) (p : Fin 8192) :
    val_main_v28 (F := Ideal) x (ix2 p (0 : Fin 1))
      = zeroOf (rowMin fun k => x (ix2 p k)) (rowMax fun k => x (ix2 p k)) := by
  rw [val_main_v28_apply, val_main_v27_apply, val_main_call1_v4_apply, val_main_call1_v2_apply, val_main_call1_v1_apply,
    val_main_v26_apply, val_main_v21_apply, val_main_v23_apply, val_main_v25_apply, val_main_v19_apply,
    val_main_v20_apply, val_main_v16_apply, val_main_v18_apply, val_main_v15_apply, val_main_v17_apply,
    val_main_v22_apply, val_main_v24_apply, val_main_v13_apply, val_main_v14_apply, ref_step, ref_hi, ref_lo]
  rfl

/-! ## The activation -/

/-- Entry (p, q) of the reference's activation is the entry divided by its row's step, rounded, shifted by the row's
    zero point, clamped to the eight-bit range, shifted back and multiplied by the step. -/
theorem ref_act (x : (⟨S8192x4096, .f32⟩ : BufTy).Contents (Elt Ideal)) :
    val_main_v38 (F := Ideal) x = Cert.QuantLinear.actQ x := by
  funext i
  obtain ⟨p, q, rfl⟩ : ∃ (p : Fin 8192) (q : Fin 4096), i = ix2 p q := ⟨i 0, i 1, eq_ix2 i⟩
  rw [val_main_v38_apply, val_main_v36_apply, val_main_v34_apply, val_main_call4_v4_apply, val_main_call4_v2_apply,
    val_main_call4_v1_apply, val_main_v33_apply, val_main_v31_apply, val_main_v30_apply, val_main_v29_apply,
    val_main_v32_apply, val_main_v35_apply, val_main_v37_apply, idx_v29_row, idx_v32_row, idx_v35_row, idx_v37_row,
    ref_step, ref_zero]
  rfl

end Cert.ReferenceIdeal.RefValue

end
-- ==== Proof.ReferenceWeight.lean ====
/-
  The reference's weight stage. The integer weight is converted entry by entry, its 4096 columns are cut into
  16 groups of 256 lanes, each group's zero is subtracted and each group's scale multiplied in, and the groups
  are laid side by side again. Entry (n, k) of the result therefore depends on the weight at (n, k) alone and on
  the zero and the scale at (n, k / 256): this is the specification's dequantized weight.
-/
import proofs.«150079_j3212635537641_1_alg».proof.Proof.QuantLinearSpec
import proofs.«150079_j3212635537641_1_alg».proof.Proof.Gen.ReferenceIdeal.Read
import Idealize.ShloMosaic.Lib.ValueIdx
import Idealize.ShloMosaic.PureOps.Ideal.Laws

set_option maxRecDepth 16384

noncomputable section

namespace Cert.ReferenceIdeal.RefWeight

open Idealize.ShloMosaic Idealize.ShloMosaic.TcCoe Idealize.ShloMosaic.ValueIdx Idealize.SL.Sem Cert.ReferenceIdeal Cert.ReferenceIdeal.Read

/-- Cutting the flat position n * 4096 + k into (row, group, lane) and joining the three again gives back (n, k):
    with k < 4096 the position's quotient by 4096 is n and its remainder is k. -/
theorem idx_weight (i : S4096x4096.Idx) : idx_main_v40 (idx_main_v47 i) = i :=
  funext fun a => Fin.ext (by
    have h0 : (i 0).val < 4096 := (i 0).isLt
    have h1 : (i 1).val < 4096 := (i 1).isLt
    match a with
    | ⟨0, _⟩ =>
      show ((((i 0).val * 4096 + (i 1).val) / 4096 * 16 + ((i 0).val * 4096 + (i 1).val) / 256 % 16) * 256
          + ((i 0).val * 4096 + (i 1).val) % 256) / 4096 = (i 0).val
      omega
    | ⟨1, _⟩ =>
      show ((((i 0).val * 4096 + (i 1).val) / 4096 * 16 + ((i 0).val * 4096 + (i 1).val) / 256 % 16) * 256
          + ((i 0).val * 4096 + (i 1).val) % 256) % 4096 = (i 1).val
      omega)

/-- The zero that entry (n, k) meets after the two broadcasts is the one at row n and group k / 256: the lane
    coordinate is dropped, the row is the position's quotient by 4096 and the group is the position's quotient by
    256, reduced modulo 16. -/
theorem idx_zero (i : S4096x4096.Idx) :
    idx_main_v41 (idx_main_v42 (idx_main_v47 i)) = ix2 (i 0) (Cert.QuantLinear.grp (i 1)) :=
  funext fun a => Fin.ext (by
    have h0 : (i 0).val < 4096 := (i 0).isLt
    have h1 : (i 1).val < 4096 := (i 1).isLt
    match a with
    | ⟨0, _⟩ =>
      show ((i 0).val * 4096 + (i 1).val) / 4096 = (i 0).val
      omega
    | ⟨1, _⟩ =>
      show ((i 0).val * 4096 + (i 1).val) / 256 % 16 = (i 1).val / 256
      omega)

/-- The scale that entry (n, k) meets is read at the same place, row n and group k / 256. -/
theorem idx_scale (i : S4096x4096.Idx) :
    idx_main_v44 (idx_main_v45 (idx_main_v47 i)) = ix2 (i 0) (Cert.QuantLinear.grp (i 1)) :=
  funext fun a => Fin.ext (by
    have h0 : (i 0).val < 4096 := (i 0).isLt
    have h1 : (i 1).val < 4096 := (i 1).isLt
    match a with
    | ⟨0, _⟩ =>
      show ((i 0).val * 4096 + (i 1).val) / 4096 = (i 0).val
      omega
    | ⟨1, _⟩ =>
      show ((i 0).val * 4096 + (i 1).val) / 256 % 16 = (i 1).val / 256
      omega)

/-- The reference's dequantized weight is the specification's: entry (n, k) is the converted integer at (n, k),
    less the zero of its group, times the scale of its group. Every operation between the arguments and the result
    is pointwise or a change of layout, so the entry is read through them one by one and the three composed
    positions are replaced by (n, k) and (n, k / 256). -/
theorem ref_weight (w : (⟨S4096x4096, .i32⟩ : BufTy).Contents (Elt Ideal)) (s z : (⟨S4096x16, .f32⟩ : BufTy).Contents (Elt Ideal)) :
    val_main_v47 (F := Ideal) w s z = Cert.QuantLinear.wDq w s z := by
  funext i
  rw [val_main_v47_apply, val_main_v46_apply, val_main_v43_apply, val_main_v40_apply, val_main_v39_apply,
    val_main_v42_apply, val_main_v41_apply, val_main_v45_apply, val_main_v44_apply,
    idx_weight, idx_zero, idx_scale]
  rfl

end Cert.ReferenceIdeal.RefWeight

end
-- ==== Proof.lean ====
/-
  A linear layer with an eight-bit dynamically quantized activation and a four-bit group-quantized weight: a kernel in
  three pipelined stages against one whole-array reference, equal on the extended reals.

  The kernel (1) quantizes and dequantizes the activation row by row — a row's minimum and maximum, widened to hold
  zero, give a step `max ((hi - lo) / 255) ε` and a rounded, clamped zero point, and an entry x becomes
  `(clip (rne (x / step) + zp) - zp) * step` —, 512 rows to a grid point; (2) dequantizes the integer weight group by
  group, entry (n, k) becoming `(w - zero (n, k / 256)) * scale (n, k / 256)`, 512 rows to a grid point; (3) contracts the
  two results along their second axes, a 1024 × 512 tile of the output to a grid point, each tile the sum over all 4096
  columns. The reference does the same three things on whole arrays. Read on the extended reals the narrowings to a
  shorter float format are the identity, a tile of a product is a tile of the whole product, and a block of rows holds
  whole rows, so both programs compute ONE function of the four arguments, `Cert.QuantLinear.out`
  (Proof/QuantLinearSpec.lean), with the same operations in the same order on the same literals: no law of
  arithmetic beyond reading a reduction as a fold over a row, and a product as a sum over the contracted coordinate,
  is used, and the finiteness of the inputs is never needed.

  The modules: the specification; per kernel stage, what its output array holds after its region, as a function of
  the arrays the region reads (Proof/QuantizeArray.lean, Proof/DequantArray.lean, Proof/MatmulArray.lean); the kernel's
  run with its result named and the three stages composed (Proof/KernelRun.lean, Proof/KernelValue.lean); the
  reference's activation and weight stages and their contraction read index by index
  (Proof/ReferenceActivation.lean, Proof/ReferenceWeight.lean, Proof/ReferenceOut.lean). Here the five claims are
  assembled: the three programs run and keep their arguments, nothing was rewritten when the kernel was read on the
  extended reals, and the two results agree.
-/
import proofs.«150079_j3212635537641_1_alg».proof.Defs
import proofs.«150079_j3212635537641_1_alg».proof.Proof.Gen.Kernel
import proofs.«150079_j3212635537641_1_alg».proof.Proof.Gen.Kernel.Frame
import proofs.«150079_j3212635537641_1_alg».proof.Proof.Gen.KernelIdeal
import proofs.«150079_j3212635537641_1_alg».proof.Proof.Gen.KernelIdeal.Frame
import proofs.«150079_j3212635537641_1_alg».proof.Proof.Gen.ReferenceIdeal
import proofs.«150079_j3212635537641_1_alg».proof.Proof.Gen.ReferenceIdeal.Run
import proofs.«150079_j3212635537641_1_alg».proof.Proof.Gen.ReferenceIdeal.Read
import proofs.«150079_j3212635537641_1_alg».proof.Proof.Gen.Pre_finite_inputs
import proofs.«150079_j3212635537641_1_alg».proof.Proof.QuantLinearSpec
import proofs.«150079_j3212635537641_1_alg».proof.Proof.KernelRun
import proofs.«150079_j3212635537641_1_alg».proof.Proof.KernelValue
import proofs.«150079_j3212635537641_1_alg».proof.Proof.ReferenceOut
import proofs.«150079_j3212635537641_1_alg».proof.Proof.QuantizeArray
import proofs.«150079_j3212635537641_1_alg».proof.Proof.DequantArray
import proofs.«150079_j3212635537641_1_alg».proof.Proof.MatmulArray
import proofs.«150079_j3212635537641_1_alg».proof.Proof.ReferenceActivation
import proofs.«150079_j3212635537641_1_alg».proof.Proof.ReferenceWeight
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference program runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From memories that agree on the four arguments both programs end with the same result array: `out` of the
    arguments — the kernel's three regions composed, and the reference's operations composed. -/
theorem algebraic : Cert.algebraic_KernelIdeal_ReferenceIdeal := by
  intro m ρ m' ρ' _ hagree
  refine ⟨fun c => Cert.QuantLinear.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.RunValue.result_eq m ρ
          Cert.KernelIdeal.QuantizeValue.quantize_array Cert.KernelIdeal.DequantValue.dequant_array
          Cert.KernelIdeal.MatmulValue.matmul_array c), (h c).2⟩)
      (Cert.KernelIdeal.RunValue.run_named (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v48_eq,
      Cert.ReferenceIdeal.RefOut.ref_out Cert.ReferenceIdeal.RefValue.ref_act Cert.ReferenceIdeal.RefWeight.ref_weight,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
